-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S32 .f32) (main_arg8 : FVec F S32x2 .f32) (main_arg9 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x2 .f32 := Host.absf main_arg8
  let main_cst_14 : FVec F S_ .f32 := constant S_ .f32 0x7F800000#32
  let main_v40 : FVec F S32x2 .f32 := broadcastInDim S32x2 ![] bcast_S_S32x2 main_cst_14
  let main_v41 : IVec S32x2 1 := cmpf .olt main_v39 main_v40
  let main_c_15 : IVec S_ 1 := constantI S_ 1 1#1
  let main_v42 : IVec S_ 1 := (fun x v => Host.reduce IntOp.andi x v reducesTo_S32x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x32 .f32) (main_arg7 : FVec F S32 .f32) (main_arg8 : FVec F S32x2 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x32 .f32) (main_arg7 : FVec F S32 .f32) (main_arg8 : FVec F S32x2 .f32) (main_arg9 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x128 : Shape := ⟨2, ![1, 128]⟩
abbrev S400x10000 : Shape := ⟨2, ![400, 10000]⟩
abbrev S400x128 : Shape := ⟨2, ![400, 128]⟩
abbrev S1x32 : Shape := ⟨2, ![1, 32]⟩
abbrev S1x2 : Shape := ⟨2, ![1, 2]⟩
abbrev S10000x2 : Shape := ⟨2, ![10000, 2]⟩
abbrev S400x2 : Shape := ⟨2, ![400, 2]⟩
abbrev S400x32 : Shape := ⟨2, ![400, 32]⟩
abbrev S400 : Shape := ⟨1, ![400]⟩
abbrev S400x1 : Shape := ⟨2, ![400, 1]⟩

abbrev nBuf : Space → Nat
  | .hbm => 19
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S128x128, .bf16⟩
  | .hbm, ⟨11, _⟩ => ⟨S10000x128, .bf16⟩
  | .hbm, ⟨12, _⟩ => ⟨S1x128, .f32⟩
  | .hbm, ⟨13, _⟩ => ⟨S128x128, .bf16⟩
  | .hbm, ⟨14, _⟩ => ⟨S10000x128, .bf16⟩
  | .hbm, ⟨15, _⟩ => ⟨S1x128, .f32⟩
  | .hbm, ⟨16, _⟩ => ⟨S1x32, .f32⟩
  | .hbm, ⟨17, _⟩ => ⟨S1x2, .f32⟩
  | .hbm, ⟨18, _⟩ => ⟨S10000x2, .f32⟩
  | .local _ .vmem, ⟨0, _⟩ => ⟨S10000x128, .f32⟩
  | .local _ .vmem, ⟨1, _⟩ => ⟨S128x128, .bf16⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x128, .bf16⟩
  | .local _ .vmem, ⟨8, _⟩ => ⟨S400x128, .bf16⟩
  | .local _ .vmem, ⟨9, _⟩ => ⟨S400x128, .bf16⟩
  | .local _ .vmem, ⟨10, _⟩ => ⟨S400x10000, .f32⟩
  | .local _ .vmem, ⟨11, _⟩ => ⟨S400x10000, .f32⟩
  | .local _ .vmem, ⟨12, _⟩ => ⟨S10000x128, .bf16⟩
  | .local _ .vmem, ⟨13, _⟩ => ⟨S1x128, .f32⟩
  | .local _ .vmem, ⟨14, _⟩ => ⟨S128x32, .f32⟩
  | .local _ .vmem, ⟨15, _⟩ => ⟨S1x32, .f32⟩
  | .local _ .vmem, ⟨16, _⟩ => ⟨S32x2, .f32⟩
  | .local _ .vmem, ⟨17, _⟩ => ⟨S1x2, .f32⟩
  | .local _ .vmem, ⟨18, _⟩ => ⟨S400x2, .f32⟩
  | .local _ .vmem, ⟨19, _⟩ => ⟨S400x2, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S32_S1x32 : S32.ShapeCasts S1x32
  shapeCasts_S2_S1x2 : S2.ShapeCasts S1x2
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S400x2 : S1x2.Broadcasts S400x2
  reduces_S400x2_S400 : S400x2.Reduces [1] S400
  shapeCasts_S400_S400x1 : S400.ShapeCasts S400x1
  broadcasts_S400x1_S400x2 : S400x1.Broadcasts S400x2
  inb_S400x2_S400x2_0_0 : ∀ a, (![0, 0] : Fin 2 → Nat) a + S400x2.size a ≤ S400x2.size a
  h_S400x2 : 0 < S400x2.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x32_S400x32_1_0_0_1_n_n_wf : DotDims.WF S400x128 S128x32 S400x32 [1] [0] [0] [1] [] []
  dot_S400x32_S32x2_S400x2_1_0_0_1_n_n_wf : DotDims.WF S400x32 S32x2 S400x2 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x2.size a ≤ S32x2.size a
  hwx2_5 : ∀ i : grid2.Coords, EltTy.bits .f32 = 32 ∨ (Rect.block (s := S32x2) S32x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x2.size a ≤ S10000x2.size a
  hwx2_7 : ∀ i : grid2.Coords, EltTy.bits .f32 = 32 ∨ (Rect.block (s := S10000x2) S400x2.size (cc2_transform_7 i) (hinb2_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x32_S32x2_S400x2_1_0_0_1_n_n : DotDims S400x32 S32x2 S400x2 where
  lhsContracting := [1]
  rhsContracting := [0]
  lhsNonContracting := [0]
  rhsNonContracting := [1]
  lhsBatch := []
  rhsBatch := []
  wf := dot_S400x32_S32x2_S400x2_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S32x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S400x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S1x128 : Shape := ⟨2, ![1, 128]⟩
abbrev S_ : Shape := ⟨0, ![]⟩
abbrev S10000x32 : Shape := ⟨2, ![10000, 32]⟩
abbrev S1x32 : Shape := ⟨2, ![1, 32]⟩
abbrev S10000x2 : Shape := ⟨2, ![10000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 49
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S10000x32, .f32⟩
  | .hbm, ⟨24, _⟩ => ⟨S1x32, .f32⟩
  | .hbm, ⟨25, _⟩ => ⟨S10000x32, .f32⟩
  | .hbm, ⟨26, _⟩ => ⟨S10000x32, .f32⟩
  | .hbm, ⟨27, _⟩ => ⟨S_, .f32⟩
  | .hbm, ⟨28, _⟩ => ⟨S10000x32, .f32⟩
  | .hbm, ⟨29, _⟩ => ⟨S10000x32, .f32⟩
  | .hbm, ⟨30, _⟩ => ⟨S10000x2, .f32⟩
  | .hbm, ⟨31, _⟩ => ⟨S1x2, .f32⟩
  | .hbm, ⟨32, _⟩ => ⟨S10000x2, .f32⟩
  | .hbm, ⟨33, _⟩ => ⟨S10000x2, .f32⟩
  | .hbm, ⟨34, _⟩ => ⟨S_, .f32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x2, .f32⟩
  | .hbm, ⟨41, _⟩ => ⟨S10000x2, .f32⟩
  | .hbm, ⟨42, _⟩ => ⟨S10000x2, .f32⟩
  | .hbm, ⟨43, _⟩ => ⟨S_, .f32⟩
  | .hbm, ⟨44, _⟩ => ⟨S10000, .f32⟩
  | .hbm, ⟨45, _⟩ => ⟨S10000x1, .f32⟩
  | .hbm, ⟨46, _⟩ => ⟨S10000x1, .f32⟩
  | .hbm, ⟨47, _⟩ => ⟨S10000x2, .f32⟩
  | .hbm, ⟨48, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_cst : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_call2_cst_0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_1 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_v20 : Ref sig .tc := ⟨.hbm, 48, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  reducesTo_S10000x2_S10000_d1 : S10000x2.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x2_0_1 : S10000x1.BroadcastsInDim S10000x2 (![0, 1] : Fin 2 → Fin S10000x2.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []
  dot_S10000x32_S32x2_S10000x2_1_0_0_1_n_n_wf : DotDims.WF S10000x32 S32x2 S10000x2 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

class Facts : Prop extends Facts₀ where

variable [Facts]
-- ==== Proof.KRun.lean ====
/-
  The idealized kernel's run with its result NAMED.

  @main is three kernel launches among stretches of host operations. The generated frame proof walks the buffer
  contents through the six segments (`Gen.W0` … `Gen.W6`: a host stretch applies its operations, a launch replaces its
  arrays by what its write-backs leave) and keeps, at the end, only that the argument arrays are as launched. Here the
  same launch theorem is applied once more with the richer final predicate: the result buffer `main_v8` ends at the last
  boundary's contents `Gen.W6 m ρ c main_v8`, and the arguments are as launched.
-/
import proofs.«129954_g6133213299120_cont_sun_m_656_2_alg».proof.Proof.Gen.KernelIdeal.Frame

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last launch leaves and the argument arrays as launched. -/
theorem run_values : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunV

end
-- ==== Proof.Bound.lean ====
/-
  The buffer contents each launch is entered from, named.

  The generated frame proof folds the buffer contents through @main's six segments (`Gen.W0` … `Gen.W6`). Here each
  buffer a launch reads is traced back through that fold: an argument array no host operation and no earlier launch
  writes is the launched memory's; a converted or reshaped copy is that operation of the argument; the intermediate
  arrays `main_v1` and `main_v4` are what the previous launch's write-backs leave.
-/
import proofs.«129954_g6133213299120_cont_sun_m_656_2_alg».proof.Proof.Gen.KernelIdeal.Frame
import Idealize.ShloMosaic.Lib.StableHlo.Run
import Idealize.ShloMosaic.Lib.ValueIdx
import Idealize.ShloMosaic.Lib.ValueLayout

noncomputable section

namespace Cert.Gcn.Bound

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Idealize.ShloMosaic.Pipeline (Dat Cfg Window)

variable (m : (ℓ : Loc nD τ sig) → Buf (Elt Ideal) ℓ) (ρ : Dev nD → PrngReg)

/-! ## Entering the first launch -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg0) := rfl

theorem W1_arg2 (c : Dev nD) : W0 m ρ c (Proc.devRef .tc main_arg2) = m ((c : Thread nD τ).loc main_arg2) := rfl

/-- The converted weight is the weight: a change of float format is the identity on extended reals. -/
theorem W1_v0 (c : Dev nD) (i : S128x128.Idx) :
    (W1 m ρ c (Proc.devRef .tc main_v0) : S128x128.Idx → EReal) i = (m ((c : Thread nD τ).loc main_arg2) : S128x128.Idx → EReal) i := by
  have e : W1 m ρ c (Proc.devRef .tc main_v0) = (fun i => (W0 m ρ c (Proc.devRef .tc main_arg2) : S128x128.Idx → EReal) i) := by
    show StableHlo.after hostOps0 (W0 m ρ c) (Proc.devRef .tc main_v0) = _
    after_results; rfl
  exact congrFun e i

/-! ## Entering the second launch -/

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg1) := W2_of_ne m ρ c main_arg1 (by decide)
    _ = W0 m ρ c (Proc.devRef .tc main_arg1) := (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg1) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg4) := rfl

/-- The first launch's output array reaches the second launch as the write-backs left it. -/
theorem W3_v1 (c : Dev nD) : W3 m ρ c (Proc.devRef .tc main_v1) = (dat0 (V1 m ρ) c).arrAt 2 cfg0.N :=
  calc W3 m ρ c (Proc.devRef .tc main_v1)
    _ = W2 m ρ c (Proc.devRef .tc main_v1) := (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = (dat0 (V1 m ρ) c).arrAt 2 cfg0.N := W2_arr m ρ c 2

/-- The bias reshaped to one row reads, in column `k`, the bias at `k`. -/
theorem W3_v2 (c : Dev nD) (k : Fin 128) :
    (W3 m ρ c (Proc.devRef .tc main_v2) : S1x128.Idx → EReal) (ix2 (0 : Fin 1) k) = (m ((c : Thread nD τ).loc main_arg3) : S128.Idx → EReal) (ix1 k) := by
  have e : W3 m ρ c (Proc.devRef .tc main_v2) = shapeCast S1x128 (W2 m ρ c (Proc.devRef .tc main_arg3)) shapeCasts_S128_S1x128 := by
    show StableHlo.after hostOps1 (W2 m ρ c) (Proc.devRef .tc main_v2) = _
    after_results; rfl
  rw [e, shapeCast_a_1a_apply, W2_arg3]

theorem W3_v3 (c : Dev nD) (i : S128x128.Idx) :
    (W3 m ρ c (Proc.devRef .tc main_v3) : S128x128.Idx → EReal) i = (m ((c : Thread nD τ).loc main_arg4) : S128x128.Idx → EReal) i := by
  have e : W3 m ρ c (Proc.devRef .tc main_v3) = (fun i => (W2 m ρ c (Proc.devRef .tc main_arg4) : S128x128.Idx → EReal) i) := by
    show StableHlo.after hostOps1 (W2 m ρ c) (Proc.devRef .tc main_v3) = _
    after_results; rfl
  rw [e, W2_arg4]

/-! ## Entering the third launch -/

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg1) := W2_of_ne m ρ c main_arg1 (by decide)
    _ = W0 m ρ c (Proc.devRef .tc main_arg1) := (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg1) := rfl

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg6) := W4_of_ne m ρ c main_arg6 (by decide)
    _ = W2 m ρ c (Proc.devRef .tc main_arg6) := (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg6) := W2_of_ne m ρ c main_arg6 (by decide)
    _ = W0 m ρ c (Proc.devRef .tc main_arg6) := (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg6) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := (StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W3 m ρ c (Proc.devRef .tc main_arg8) := W4_of_ne m ρ c main_arg8 (by decide)
    _ = W2 m ρ c (Proc.devRef .tc main_arg8) := (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg8) := W2_of_ne m ρ c main_arg8 (by decide)
    _ = W0 m ρ c (Proc.devRef .tc main_arg8) := (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg8) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg5) := W2_of_ne m ρ c main_arg5 (by decide)
    _ = W0 m ρ c (Proc.devRef .tc main_arg5) := (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg5) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg7) := W2_of_ne m ρ c main_arg7 (by decide)
    _ = W0 m ρ c (Proc.devRef .tc main_arg7) := (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg7) := rfl

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = W1 m ρ c (Proc.devRef .tc main_arg9) := W2_of_ne m ρ c main_arg9 (by decide)
    _ = W0 m ρ c (Proc.devRef .tc main_arg9) := (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = m ((c : Thread nD τ).loc main_arg9) := rfl

/-- The second launch's output array reaches the third launch as the write-backs left it. -/
theorem W5_v4 (c : Dev nD) : W5 m ρ c (Proc.devRef .tc main_v4) = (dat1 (V3 m ρ) c).arrAt 4 cfg1.N :=
  calc W5 m ρ c (Proc.devRef .tc main_v4)
    _ = W4 m ρ c (Proc.devRef .tc main_v4) := (StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
    _ = (dat1 (V3 m ρ) c).arrAt 4 cfg1.N := W4_arr m ρ c 4

theorem W5_v5 (c : Dev nD) (k : Fin 128) :
    (W5 m ρ c (Proc.devRef .tc main_v5) : S1x128.Idx → EReal) (ix2 (0 : Fin 1) k) = (m ((c : Thread nD τ).loc main_arg5) : S128.Idx → EReal) (ix1 k) := by
  have e : W5 m ρ c (Proc.devRef .tc main_v5) = shapeCast S1x128 (W4 m ρ c (Proc.devRef .tc main_arg5)) shapeCasts_S128_S1x128 := by
    show StableHlo.after hostOps2 (W4 m ρ c) (Proc.devRef .tc main_v5) = _
    after_results; rfl
  rw [e, shapeCast_a_1a_apply, W4_arg5]

theorem W5_v6 (c : Dev nD) (k : Fin 32) :
    (W5 m ρ c (Proc.devRef .tc main_v6) : S1x32.Idx → EReal) (ix2 (0 : Fin 1) k) = (m ((c : Thread nD τ).loc main_arg7) : S32.Idx → EReal) (ix1 k) := by
  have e : W5 m ρ c (Proc.devRef .tc main_v6) = shapeCast S1x32 (W4 m ρ c (Proc.devRef .tc main_arg7)) shapeCasts_S32_S1x32 := by
    show StableHlo.after hostOps2 (W4 m ρ c) (Proc.devRef .tc main_v6) = _
    after_results; rfl
  rw [e, shapeCast_a_1a_apply, W4_arg7]

theorem W5_v7 (c : Dev nD) (k : Fin 2) :
    (W5 m ρ c (Proc.devRef .tc main_v7) : S1x2.Idx → EReal) (ix2 (0 : Fin 1) k) = (m ((c : Thread nD τ).loc main_arg9) : S2.Idx → EReal) (ix1 k) := by
  have e : W5 m ρ c (Proc.devRef .tc main_v7) = shapeCast S1x2 (W4 m ρ c (Proc.devRef .tc main_arg9)) shapeCasts_S2_S1x2 := by
    show StableHlo.after hostOps2 (W4 m ρ c) (Proc.devRef .tc main_v7) = _
    after_results; rfl
  rw [e, shapeCast_a_1a_apply, W4_arg9]

end Cert.Gcn.Bound

end
-- ==== Proof.Spec.lean ====
/-
  The mathematics both programs compute, stated once, index by index, on extended reals.

  A two-layer graph convolution followed by a small dense head and a row-wise log-softmax:
    s1 = X · W1,   s2 = relu (A · s1 + b1) · W2,   logits = A · s2 + b2,
    feat = relu (logits · fw1 + fb1),   score = feat · fw2 + fb2,
    out r c = (score r c - rowmax r) - log (∑ c', exp (score r c' - rowmax r)).
  Every entry of row `r` of a result depends on row `r` of the adjacency matrix `A` only (and on the whole of the
  small operands): the functions below take the row as an argument, and `*_row` say that they read nothing else of `A`.
  Arrays are functions of literal-shape indices; a bias is passed as a function of its one coordinate, so that a
  rank-1 array and its [1, n] reshape are the same argument.
-/
import Idealize.ShloMosaic.PureOps.Ideal
import Idealize.ShloMosaic.Lib.ValueIdx

noncomputable section

open scoped BigOperators

namespace Cert.Gcn

open Idealize.ShloMosaic Idealize.ShloMosaic.ValueIdx

/-- A rank-2 array of extended reals of literal extents. -/
abbrev Arr2 (a b : Nat) : Type := (⟨2, ![a, b]⟩ : Shape).Idx → EReal

variable {n p h o f q : Nat}

/-- The matrix product at `(r, c)`: the sum over the contracted coordinate. -/
def mm (x : Arr2 n p) (w : Arr2 p o) (r : Fin n) (c : Fin o) : EReal := ∑ j : Fin p, x (ix2 r j) * w (ix2 j c)

/-- One graph convolution before its activation: `(A · S) r k + b k`. -/
def logit (A : Arr2 n p) (S : Arr2 p h) (b : Fin h → EReal) (r : Fin n) (k : Fin h) : EReal := mm A S r k + b k

/-- The first layer's hidden activation `relu (A · S + b)`. -/
def hid (A : Arr2 n p) (S : Arr2 p h) (b : Fin h → EReal) (r : Fin n) (k : Fin h) : EReal := max (logit A S b r k) 0

/-- The first layer followed by the second layer's weight: `relu (A · S + b) · W`. -/
def layer1 (A : Arr2 n p) (S : Arr2 p h) (b : Fin h → EReal) (W : Arr2 h o) (r : Fin n) (c : Fin o) : EReal :=
  ∑ k : Fin h, hid A S b r k * W (ix2 k c)

/-- The head's hidden features `relu ((A · S + b) · fw1 + fb1)`. -/
def feat (A : Arr2 n p) (S : Arr2 p h) (b : Fin h → EReal) (fw1 : Arr2 h f) (fb1 : Fin f → EReal) (r : Fin n) (k : Fin f) : EReal :=
  max ((∑ j : Fin h, logit A S b r j * fw1 (ix2 j k)) + fb1 k) 0

/-- The class scores `feat · fw2 + fb2`. -/
def score (A : Arr2 n p) (S : Arr2 p h) (b : Fin h → EReal) (fw1 : Arr2 h f) (fb1 : Fin f → EReal) (fw2 : Arr2 f q)
    (fb2 : Fin q → EReal) (r : Fin n) (c : Fin q) : EReal :=
  (∑ k : Fin f, feat A S b fw1 fb1 r k * fw2 (ix2 k c)) + fb2 c

/-- The value a maximum over a row starts from: the f32 pattern of minus infinity, kept as its pattern. -/
def negInf : EReal := Ideal.ofBits .f32 0xFF800000#32

/-- A row's largest score. -/
def rowmax (A : Arr2 n p) (S : Arr2 p h) (b : Fin h → EReal) (fw1 : Arr2 h f) (fb1 : Fin f → EReal) (fw2 : Arr2 f q)
    (fb2 : Fin q → EReal) (r : Fin n) : EReal :=
  (Finset.univ : Finset (Fin q)).fold max negInf (fun c => score A S b fw1 fb1 fw2 fb2 r c)

/-- The row-wise log-softmax of the scores, shifted by the row's maximum as both programs shift it. -/
def head (A : Arr2 n p) (S : Arr2 p h) (b : Fin h → EReal) (fw1 : Arr2 h f) (fb1 : Fin f → EReal) (fw2 : Arr2 f q)
    (fb2 : Fin q → EReal) (r : Fin n) (c : Fin q) : EReal :=
  (score A S b fw1 fb1 fw2 fb2 r c - rowmax A S b fw1 fb1 fw2 fb2 r)
    - Ideal.log (∑ c' : Fin q, Ideal.exp (score A S b fw1 fb1 fw2 fb2 r c' - rowmax A S b fw1 fb1 fw2 fb2 r))

/-! ## Row locality: row `r` of a result reads row `r` of the adjacency matrix only -/

variable {n' : Nat}

theorem mm_row (A : Arr2 n p) (A' : Arr2 n' p) (S : Arr2 p h) (r : Fin n) (r' : Fin n')
    (hA : ∀ j : Fin p, A' (ix2 r' j) = A (ix2 r j)) (k : Fin h) : mm A' S r' k = mm A S r k := by
  unfold mm; exact Finset.sum_congr rfl fun j _ => by rw [hA j]

theorem logit_row (A : Arr2 n p) (A' : Arr2 n' p) (S : Arr2 p h) (b : Fin h → EReal) (r : Fin n) (r' : Fin n')
    (hA : ∀ j : Fin p, A' (ix2 r' j) = A (ix2 r j)) (k : Fin h) : logit A' S b r' k = logit A S b r k := by
  unfold logit; rw [mm_row A A' S r r' hA k]

theorem layer1_row (A : Arr2 n p) (A' : Arr2 n' p) (S : Arr2 p h) (b : Fin h → EReal) (W : Arr2 h o) (r : Fin n) (r' : Fin n')
    (hA : ∀ j : Fin p, A' (ix2 r' j) = A (ix2 r j)) (c : Fin o) : layer1 A' S b W r' c = layer1 A S b W r c := by
  unfold layer1 hid; exact Finset.sum_congr rfl fun k _ => by rw [logit_row A A' S b r r' hA k]

theorem score_row (A : Arr2 n p) (A' : Arr2 n' p) (S : Arr2 p h) (b : Fin h → EReal) (fw1 : Arr2 h f) (fb1 : Fin f → EReal)
    (fw2 : Arr2 f q) (fb2 : Fin q → EReal) (r : Fin n) (r' : Fin n') (hA : ∀ j : Fin p, A' (ix2 r' j) = A (ix2 r j)) (c : Fin q) :
    score A' S b fw1 fb1 fw2 fb2 r' c = score A S b fw1 fb1 fw2 fb2 r c := by
  unfold score feat
  refine congrArg (· + fb2 c) (Finset.sum_congr rfl fun k _ => ?_)
  refine congrArg (fun t => max (t + fb1 k) 0 * fw2 (ix2 k c)) (Finset.sum_congr rfl fun j _ => ?_)
  rw [logit_row A A' S b r r' hA j]

theorem head_row (A : Arr2 n p) (A' : Arr2 n' p) (S : Arr2 p h) (b : Fin h → EReal) (fw1 : Arr2 h f) (fb1 : Fin f → EReal)
    (fw2 : Arr2 f q) (fb2 : Fin q → EReal) (r : Fin n) (r' : Fin n') (hA : ∀ j : Fin p, A' (ix2 r' j) = A (ix2 r j)) (c : Fin q) :
    head A' S b fw1 fb1 fw2 fb2 r' c = head A S b fw1 fb1 fw2 fb2 r c := by
  have hs : (fun c => score A' S b fw1 fb1 fw2 fb2 r' c) = fun c => score A S b fw1 fb1 fw2 fb2 r c :=
    funext fun c => score_row A A' S b fw1 fb1 fw2 fb2 r r' hA c
  have hm : rowmax A' S b fw1 fb1 fw2 fb2 r' = rowmax A S b fw1 fb1 fw2 fb2 r := by unfold rowmax; rw [hs]
  unfold head; rw [hm, congrFun hs c]
  exact congrArg (fun g : Fin q → EReal => (score A S b fw1 fb1 fw2 fb2 r c - rowmax A S b fw1 fb1 fw2 fb2 r)
    - Ideal.log (∑ c' : Fin q, Ideal.exp (g c' - rowmax A S b fw1 fb1 fw2 fb2 r))) hs

end Cert.Gcn

end
-- ==== Proof.SpecCongr.lean ====
/-
  Congruence of the layer functions: each reads its operands only at the entries named, so two calls agree as soon as
  those entries agree. Used to pass from a launch's blocks (a row block of the adjacency matrix, the small operands
  as staged) to the arrays they were cut from.
-/
import proofs.«129954_g6133213299120_cont_sun_m_656_2_alg».proof.Proof.Spec

noncomputable section

open scoped BigOperators

namespace Cert.Gcn

open Idealize.ShloMosaic Idealize.ShloMosaic.ValueIdx

variable {n n' p h o f q : Nat}

theorem mm_congr (A : Arr2 n p) (A' : Arr2 n' p) (S S' : Arr2 p h) (r : Fin n) (r' : Fin n') (k : Fin h)
    (hA : ∀ j : Fin p, A' (ix2 r' j) = A (ix2 r j)) (hS : ∀ j : Fin p, S' (ix2 j k) = S (ix2 j k)) :
    mm A' S' r' k = mm A S r k := by
  unfold mm; exact Finset.sum_congr rfl fun j _ => by rw [hA j, hS j]

theorem logit_congr (A : Arr2 n p) (A' : Arr2 n' p) (S S' : Arr2 p h) (b b' : Fin h → EReal) (r : Fin n) (r' : Fin n') (k : Fin h)
    (hA : ∀ j : Fin p, A' (ix2 r' j) = A (ix2 r j)) (hS : ∀ j : Fin p, S' (ix2 j k) = S (ix2 j k)) (hb : b' k = b k) :
    logit A' S' b' r' k = logit A S b r k := by
  unfold logit; rw [mm_congr A A' S S' r r' k hA hS, hb]

theorem layer1_congr (A : Arr2 n p) (A' : Arr2 n' p) (S S' : Arr2 p h) (b b' : Fin h → EReal) (W W' : Arr2 h o)
    (r : Fin n) (r' : Fin n') (c c' : Fin o)
    (hA : ∀ j : Fin p, A' (ix2 r' j) = A (ix2 r j)) (hS : ∀ (j : Fin p) (k : Fin h), S' (ix2 j k) = S (ix2 j k))
    (hb : ∀ k : Fin h, b' k = b k) (hW : ∀ k : Fin h, W' (ix2 k c') = W (ix2 k c)) :
    layer1 A' S' b' W' r' c' = layer1 A S b W r c := by
  unfold layer1 hid
  exact Finset.sum_congr rfl fun k _ => by
    rw [logit_congr A A' S S' b b' r r' k hA (fun j => hS j k) (hb k), hW k]

theorem score_congr (A : Arr2 n p) (A' : Arr2 n' p) (S S' : Arr2 p h) (b b' : Fin h → EReal) (fw1 fw1' : Arr2 h f)
    (fb1 fb1' : Fin f → EReal) (fw2 fw2' : Arr2 f q) (fb2 fb2' : Fin q → EReal) (r : Fin n) (r' : Fin n') (c : Fin q)
    (hA : ∀ j : Fin p, A' (ix2 r' j) = A (ix2 r j)) (hS : ∀ (j : Fin p) (k : Fin h), S' (ix2 j k) = S (ix2 j k))
    (hb : ∀ k : Fin h, b' k = b k) (h1 : ∀ (j : Fin h) (k : Fin f), fw1' (ix2 j k) = fw1 (ix2 j k))
    (hb1 : ∀ k : Fin f, fb1' k = fb1 k) (h2 : ∀ (k : Fin f) (c : Fin q), fw2' (ix2 k c) = fw2 (ix2 k c))
    (hb2 : ∀ c : Fin q, fb2' c = fb2 c) :
    score A' S' b' fw1' fb1' fw2' fb2' r' c = score A S b fw1 fb1 fw2 fb2 r c := by
  unfold score feat
  rw [hb2 c]
  refine congrArg (· + fb2 c) (Finset.sum_congr rfl fun k _ => ?_)
  rw [hb1 k, h2 k c]
  refine congrArg (fun t => max (t + fb1 k) 0 * fw2 (ix2 k c)) (Finset.sum_congr rfl fun j _ => ?_)
  rw [logit_congr A A' S S' b b' r r' j hA (fun i => hS i j) (hb j), h1 j k]

theorem head_congr (A : Arr2 n p) (A' : Arr2 n' p) (S S' : Arr2 p h) (b b' : Fin h → EReal) (fw1 fw1' : Arr2 h f)
    (fb1 fb1' : Fin f → EReal) (fw2 fw2' : Arr2 f q) (fb2 fb2' : Fin q → EReal) (r : Fin n) (r' : Fin n') (c c' : Fin q)
    (hc : c' = c)
    (hA : ∀ j : Fin p, A' (ix2 r' j) = A (ix2 r j)) (hS : ∀ (j : Fin p) (k : Fin h), S' (ix2 j k) = S (ix2 j k))
    (hb : ∀ k : Fin h, b' k = b k) (h1 : ∀ (j : Fin h) (k : Fin f), fw1' (ix2 j k) = fw1 (ix2 j k))
    (hb1 : ∀ k : Fin f, fb1' k = fb1 k) (h2 : ∀ (k : Fin f) (c : Fin q), fw2' (ix2 k c) = fw2 (ix2 k c))
    (hb2 : ∀ c : Fin q, fb2' c = fb2 c) :
    head A' S' b' fw1' fb1' fw2' fb2' r' c' = head A S b fw1 fb1 fw2 fb2 r c := by
  subst hc
  have hs : (fun c => score A' S' b' fw1' fb1' fw2' fb2' r' c) = fun c => score A S b fw1 fb1 fw2 fb2 r c :=
    funext fun c => score_congr A A' S S' b b' fw1 fw1' fb1 fb1' fw2 fw2' fb2 fb2' r r' c hA hS hb h1 hb1 h2 hb2
  have hm : rowmax A' S' b' fw1' fb1' fw2' fb2' r' = rowmax A S b fw1 fb1 fw2 fb2 r := by unfold rowmax; rw [hs]
  unfold head; rw [hm, congrFun hs c']
  exact congrArg (fun g : Fin q → EReal => (score A S b fw1 fb1 fw2 fb2 r c' - rowmax A S b fw1 fb1 fw2 fb2 r)
    - Ideal.log (∑ c'' : Fin q, Ideal.exp (g c'' - rowmax A S b fw1 fb1 fw2 fb2 r))) hs

end Cert.Gcn

end
-- ==== Proof.Reg0.lean ====
/-
  The first launch (the feature transform `X · W1`): what its output array holds after the launch, as one function of
  the arrays the launch finds. The launch has no grid: its one point reads both operands whole and writes the whole
  [10000, 128] output.
-/
import proofs.«129954_g6133213299120_cont_sun_m_656_2_alg».proof.Proof.Gen.KernelIdeal.Frame
import proofs.«129954_g6133213299120_cont_sun_m_656_2_alg».proof.Proof.SpecCongr
import Idealize.ShloMosaic.Lib.Pipeline.Value
import Idealize.ShloMosaic.Lib.ValueIdx

noncomputable section

open scoped BigOperators

namespace Cert.Gcn.Reg0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The output array the launch leaves: the product of the two operands as the launch finds them. -/
def G (c : Dev nD) : S10000x128.Idx → EReal := fun i =>
  mm (V c main_arg0 : S10000x128.Idx → EReal) (V c main_v0 : S128x128.Idx → EReal)
    (⟨(i 0).val, idx2_lt0 i⟩ : Fin 10000) (⟨(i 1).val, idx2_lt1 i⟩ : Fin 128)

/-- Every window of the launch sits at block 0 on both axes. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The product at `(r, k)` reads row `r` of the left operand and column `k` of the right one. -/
theorem mm_congr2 {n n' p h : Nat} (A : Arr2 n p) (A' : Arr2 n' p) (S S' : Arr2 p h) (r : Fin n) (r' : Fin n') (k k' : Fin h)
    (hA : ∀ j : Fin p, A' (ix2 r' j) = A (ix2 r j)) (hS : ∀ j : Fin p, S' (ix2 j k') = S (ix2 j k)) :
    mm A' S' r' k' = mm A S r k := by
  unfold mm; exact Finset.sum_congr rfl fun j _ => by rw [hA j, hS j]

variable (hpay : ∀ (x0 : Vec Ideal S10000x128 .f32) (x1 : Vec Ideal S128x128 .bf16) (r : Fin 10000) (q : Fin 128),
    k0_pay1 (F := Ideal) x0 x1 (ix2 r q) = mm x0 x1 r q)

include hpay in
/-- What the one point writes back is `G` read through the whole-array block. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts t
  funext y
  obtain ⟨p, q, rfl⟩ : ∃ (p : Fin 10000) (q : Fin 128), y = ix2 p q := ⟨y 0, y 1, eq_ix2 y⟩
  refine (hpay _ _ p q).trans ?_
  rw [View.read_apply]
  unfold G
  refine mm_congr2 _ _ _ _ _ _ _ _ ?_ ?_
  · intro j
    unfold iblk0
    rw [View.read_apply]
    refine congrArg (V c main_arg0 : S10000x128.Idx → EReal) (funext fun a => Fin.ext ?_)
    match a with
    | ⟨0, _⟩ => show win0_0.index t (0 : Fin 2) * 10000 + 1 * p.val = win0_2.index t (0 : Fin 2) * 10000 + 1 * p.val; rw [e00, e20]
    | ⟨1, _⟩ => show win0_0.index t (1 : Fin 2) * 128 + 1 * j.val = j.val; rw [e01]; omega
  · intro j
    unfold iblk0
    rw [View.read_apply]
    refine congrArg (V c main_v0 : S128x128.Idx → EReal) (funext fun a => Fin.ext ?_)
    match a with
    | ⟨0, _⟩ => show win0_1.index t (0 : Fin 2) * 128 + 1 * j.val = j.val; rw [e10]; omega
    | ⟨1, _⟩ => show win0_1.index t (1 : Fin 2) * 128 + 1 * q.val = win0_2.index t (1 : Fin 2) * 128 + 1 * q.val; rw [e11, e21]

/-- An index of the output array is in the point's block iff each coordinate is in the block's range on its axis. -/
theorem mem_blk (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v1).slice (win0_2.rect t)).set ↔ _
  rw [View.set_slice_whole, Rect.mem_set_unit]
  exact Iff.rfl

include hpay in
/-- The one block is the whole array, so the output array ends holding `G`. -/
theorem final (c : Dev nD) : (dat0 V c).arrAt 2 cfg0.N = G V c :=
  (dat0 V c).arrAt_eq_of_cover 2 (G V c) (fun t _ => flushed_eq V hpay c t) fun i => by
    have hi0 : (i 0).val < 10000 := idx2_lt0 i
    have hi1 : (i 1).val < 128 := idx2_lt1 i
    refine ⟨t0_0, flush0_2 _, ?_⟩
    rw [mem_blk]
    obtain ⟨-, -, -, -, e20, e21⟩ := idx_facts t0_0
    intro a
    match a with
    | ⟨0, _⟩ =>
      show win0_2.index t0_0 (0 : Fin 2) * 10000 ≤ (i 0).val ∧ (i 0).val < win0_2.index t0_0 (0 : Fin 2) * 10000 + 10000
      rw [e20]; omega
    | ⟨1, _⟩ =>
      show win0_2.index t0_0 (1 : Fin 2) * 128 ≤ (i 1).val ∧ (i 1).val < win0_2.index t0_0 (1 : Fin 2) * 128 + 128
      rw [e21]; omega

end Cert.Gcn.Reg0

end
-- ==== Proof.Reg1.lean ====
/-
  The second launch (layer one): what its output array holds after the launch, as one function of the arrays the
  launch finds.

  The grid has 25 points; point `t` reads rows `400 t … 400 t + 399` of the adjacency matrix and the whole of the three
  small operands, and writes rows `400 t … 400 t + 399` of the output. Row `p` of the block is row `400 t + p` of
  `relu (A · S + b) · W`, which reads row `400 t + p` of `A` only; the 25 row blocks tile the 10000 rows.
-/
import proofs.«129954_g6133213299120_cont_sun_m_656_2_alg».proof.Proof.Gen.KernelIdeal.Frame
import proofs.«129954_g6133213299120_cont_sun_m_656_2_alg».proof.Proof.SpecCongr
import Idealize.ShloMosaic.Lib.Pipeline.Value
import Idealize.ShloMosaic.Lib.ValueIdx

noncomputable section

open scoped BigOperators

namespace Cert.Gcn.Reg1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The output array the launch leaves: `relu (A · S + b) · W` of the arrays as the launch finds them. -/
def G (c : Dev nD) : S10000x128.Idx → EReal := fun i =>
  layer1 (V c main_arg1 : S10000x10000.Idx → EReal) (V c main_v1 : S10000x128.Idx → EReal)
    (fun k => (V c main_v2 : S1x128.Idx → EReal) (ix2 (0 : Fin 1) k)) (V c main_v3 : S128x128.Idx → EReal)
    (⟨(i 0).val, idx2_lt0 i⟩ : Fin 10000) (⟨(i 1).val, idx2_lt1 i⟩ : Fin 128)

/-- The printed index maps over the grid: the adjacency and output windows move down one row block per point, the
    other windows stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (hpay : ∀ (x0 : Vec Ideal S400x10000 .f32) (x1 : Vec Ideal S10000x128 .bf16) (x2 : Vec Ideal S1x128 .f32)
    (x3 : Vec Ideal S128x128 .bf16) (r : Fin 400) (q : Fin 128),
    k1_pay1 (F := Ideal) x0 x1 x2 x3 (ix2 r q) = layer1 x0 x1 (fun k => x2 (ix2 (0 : Fin 1) k)) x3 r q)

include hpay in
/-- What point `t` writes back is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x128) hz]
  obtain ⟨e00, e01, e10, e11, e20, e21, e30, e31, e40, e41⟩ := idx_facts t
  funext y
  obtain ⟨p, q, rfl⟩ : ∃ (p : Fin 400) (q : Fin 128), y = ix2 p q := ⟨y 0, y 1, eq_ix2 y⟩
  refine (hpay _ _ _ _ p q).trans ?_
  rw [View.read_apply]
  unfold G
  refine layer1_congr _ _ _ _ _ _ _ _ _ _ _ _ ?_ ?_ ?_ ?_
  · intro j
    unfold iblk1
    rw [View.read_apply]
    refine congrArg (V c main_arg1 : S10000x10000.Idx → EReal) (funext fun a => Fin.ext ?_)
    match a with
    | ⟨0, _⟩ => show win1_0.index t (0 : Fin 2) * 400 + 1 * p.val = win1_4.index t (0 : Fin 2) * 400 + 1 * p.val; rw [e00, e40]
    | ⟨1, _⟩ => show win1_0.index t (1 : Fin 2) * 10000 + 1 * j.val = j.val; rw [e01]; omega
  · intro j k
    unfold iblk1
    rw [View.read_apply]
    refine congrArg (V c main_v1 : S10000x128.Idx → EReal) (funext fun a => Fin.ext ?_)
    match a with
    | ⟨0, _⟩ => show win1_1.index t (0 : Fin 2) * 10000 + 1 * j.val = j.val; rw [e10]; omega
    | ⟨1, _⟩ => show win1_1.index t (1 : Fin 2) * 128 + 1 * k.val = k.val; rw [e11]; omega
  · intro k
    unfold iblk1
    rw [View.read_apply]
    refine congrArg (V c main_v2 : S1x128.Idx → EReal) (funext fun a => Fin.ext ?_)
    match a with
    | ⟨0, _⟩ => show win1_2.index t (0 : Fin 2) * 1 + 1 * 0 = 0; rw [e20]
    | ⟨1, _⟩ => show win1_2.index t (1 : Fin 2) * 128 + 1 * k.val = k.val; rw [e21]; omega
  · intro k
    unfold iblk1
    rw [View.read_apply]
    refine congrArg (V c main_v3 : S128x128.Idx → EReal) (funext fun a => Fin.ext ?_)
    match a with
    | ⟨0, _⟩ => show win1_3.index t (0 : Fin 2) * 128 + 1 * k.val = k.val; rw [e30]; omega
    | ⟨1, _⟩ => show win1_3.index t (1 : Fin 2) * 128 + 1 * q.val = win1_4.index t (1 : Fin 2) * 128 + 1 * q.val; rw [e31, e41]

/-- An index of the output array is in point `t`'s block iff each coordinate is in the block's range on its axis. -/
theorem mem_blk (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v4).slice (win1_4.rect t)).set ↔ _
  rw [View.set_slice_whole, Rect.mem_set_unit]
  exact Iff.rfl

include hpay in
/-- The 25 row blocks tile the rows, so the output array ends holding `G`: row `r` is written by point `r / 400`. -/
theorem final (c : Dev nD) : (dat1 V c).arrAt 4 cfg1.N = G V c :=
  (dat1 V c).arrAt_eq_of_cover 4 (G V c) (fun t _ => flushed_eq V hpay c t) fun i => by
    have hi0 : (i 0).val < 10000 := idx2_lt0 i
    have hi1 : (i 1).val < 128 := idx2_lt1 i
    have hN : cfg1.N = 25 := N_1
    have ht : (i 0).val / 400 < cfg1.N := by rw [hN]; omega
    refine ⟨⟨(i 0).val / 400, ht⟩, flush1_4 _, ?_⟩
    rw [mem_blk]
    obtain ⟨-, -, -, -, -, -, -, -, e40, e41⟩ := idx_facts ⟨(i 0).val / 400, ht⟩
    intro a
    match a with
    | ⟨0, _⟩ =>
      show win1_4.index ⟨(i 0).val / 400, ht⟩ (0 : Fin 2) * 400 ≤ (i 0).val
        ∧ (i 0).val < win1_4.index ⟨(i 0).val / 400, ht⟩ (0 : Fin 2) * 400 + 400
      rw [e40]; show (i 0).val / 400 * 400 ≤ (i 0).val ∧ (i 0).val < (i 0).val / 400 * 400 + 400; omega
    | ⟨1, _⟩ =>
      show win1_4.index ⟨(i 0).val / 400, ht⟩ (1 : Fin 2) * 128 ≤ (i 1).val
        ∧ (i 1).val < win1_4.index ⟨(i 0).val / 400, ht⟩ (1 : Fin 2) * 128 + 128
      rw [e41]; omega

end Cert.Gcn.Reg1

end
-- ==== Proof.Reg2.lean ====
/-
  The third launch (layer two, the dense head and the row-wise log-softmax): what its output array holds after the
  launch, as one function of the arrays the launch finds.

  The grid has 25 points; point `t` reads rows `400 t … 400 t + 399` of the adjacency matrix and the whole of the six
  small operands, and writes rows `400 t … 400 t + 399` of the [10000, 2] output. Row `p` of the block is row
  `400 t + p` of the head's function, which reads row `400 t + p` of `A` only; the 25 row blocks tile the 10000 rows.
-/
import proofs.«129954_g6133213299120_cont_sun_m_656_2_alg».proof.Proof.Gen.KernelIdeal.Frame
import proofs.«129954_g6133213299120_cont_sun_m_656_2_alg».proof.Proof.SpecCongr
import Idealize.ShloMosaic.Lib.Pipeline.Value
import Idealize.ShloMosaic.Lib.ValueIdx

noncomputable section

open scoped BigOperators

namespace Cert.Gcn.Reg2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The output array the launch leaves: the head's function of the arrays as the launch finds them. -/
def G (c : Dev nD) : S10000x2.Idx → EReal := fun i =>
  head (V c main_arg1 : S10000x10000.Idx → EReal) (V c main_v4 : S10000x128.Idx → EReal)
    (fun k => (V c main_v5 : S1x128.Idx → EReal) (ix2 (0 : Fin 1) k)) (V c main_arg6 : S128x32.Idx → EReal)
    (fun k => (V c main_v6 : S1x32.Idx → EReal) (ix2 (0 : Fin 1) k)) (V c main_arg8 : S32x2.Idx → EReal)
    (fun k => (V c main_v7 : S1x2.Idx → EReal) (ix2 (0 : Fin 1) k))
    (⟨(i 0).val, idx2_lt0 i⟩ : Fin 10000) (⟨(i 1).val, idx2_lt1 i⟩ : Fin 2)

/-- The printed index maps over the grid: the adjacency and output windows move down one row block per point, the
    other windows stay at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

variable (hpay : ∀ (x0 : Vec Ideal S400x10000 .f32) (x1 : Vec Ideal S10000x128 .bf16) (x2 : Vec Ideal S1x128 .f32)
    (x3 : Vec Ideal S128x32 .f32) (x4 : Vec Ideal S1x32 .f32) (x5 : Vec Ideal S32x2 .f32) (x6 : Vec Ideal S1x2 .f32)
    (r : Fin 400) (q : Fin 2),
    k2_pay1 (F := Ideal) x0 x1 x2 x3 x4 x5 x6 (ix2 r q)
      = head x0 x1 (fun k => x2 (ix2 (0 : Fin 1) k)) x3 (fun k => x4 (ix2 (0 : Fin 1) k)) x5 (fun k => x6 (ix2 (0 : Fin 1) k)) r q)

include hpay in
/-- What point `t` writes back is block `t` of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S400x10000) hz, View.ld_unit_zero (S := S10000x128) hz,
    View.ld_unit_zero (S := S1x128) hz, View.ld_unit_zero (S := S128x32) hz, View.ld_unit_zero (S := S1x32) hz,
    View.ld_unit_zero (S := S32x2) hz, View.ld_unit_zero (S := S1x2) hz]
  obtain ⟨e00, e01, e10, e11, e20, e21, e30, e31, e40, e41, e50, e51, e60, e61, e70, e71⟩ := idx_facts t
  funext y
  obtain ⟨p, q, rfl⟩ : ∃ (p : Fin 400) (q : Fin 2), y = ix2 p q := ⟨y 0, y 1, eq_ix2 y⟩
  refine (hpay _ _ _ _ _ _ _ p q).trans ?_
  rw [View.read_apply]
  unfold G
  refine head_congr _ _ _ _ _ _ _ _ _ _ _ _ _ _ _ _ _ _ ?_ ?_ ?_ ?_ ?_ ?_ ?_ ?_
  · exact Fin.ext (by show q.val = win2_7.index t (1 : Fin 2) * 2 + 1 * q.val; rw [e71]; omega)
  · intro j
    unfold iblk2
    rw [View.read_apply]
    refine congrArg (V c main_arg1 : S10000x10000.Idx → EReal) (funext fun a => Fin.ext ?_)
    match a with
    | ⟨0, _⟩ => show win2_0.index t (0 : Fin 2) * 400 + 1 * p.val = win2_7.index t (0 : Fin 2) * 400 + 1 * p.val; rw [e00, e70]
    | ⟨1, _⟩ => show win2_0.index t (1 : Fin 2) * 10000 + 1 * j.val = j.val; rw [e01]; omega
  · intro j k
    unfold iblk2
    rw [View.read_apply]
    refine congrArg (V c main_v4 : S10000x128.Idx → EReal) (funext fun a => Fin.ext ?_)
    match a with
    | ⟨0, _⟩ => show win2_1.index t (0 : Fin 2) * 10000 + 1 * j.val = j.val; rw [e10]; omega
    | ⟨1, _⟩ => show win2_1.index t (1 : Fin 2) * 128 + 1 * k.val = k.val; rw [e11]; omega
  · intro k
    unfold iblk2
    rw [View.read_apply]
    refine congrArg (V c main_v5 : S1x128.Idx → EReal) (funext fun a => Fin.ext ?_)
    match a with
    | ⟨0, _⟩ => show win2_2.index t (0 : Fin 2) * 1 + 1 * 0 = 0; rw [e20]
    | ⟨1, _⟩ => show win2_2.index t (1 : Fin 2) * 128 + 1 * k.val = k.val; rw [e21]; omega
  · intro j k
    unfold iblk2
    rw [View.read_apply]
    refine congrArg (V c main_arg6 : S128x32.Idx → EReal) (funext fun a => Fin.ext ?_)
    match a with
    | ⟨0, _⟩ => show win2_3.index t (0 : Fin 2) * 128 + 1 * j.val = j.val; rw [e30]; omega
    | ⟨1, _⟩ => show win2_3.index t (1 : Fin 2) * 32 + 1 * k.val = k.val; rw [e31]; omega
  · intro k
    unfold iblk2
    rw [View.read_apply]
    refine congrArg (V c main_v6 : S1x32.Idx → EReal) (funext fun a => Fin.ext ?_)
    match a with
    | ⟨0, _⟩ => show win2_4.index t (0 : Fin 2) * 1 + 1 * 0 = 0; rw [e40]
    | ⟨1, _⟩ => show win2_4.index t (1 : Fin 2) * 32 + 1 * k.val = k.val; rw [e41]; omega
  · intro k c'
    unfold iblk2
    rw [View.read_apply]
    refine congrArg (V c main_arg8 : S32x2.Idx → EReal) (funext fun a => Fin.ext ?_)
    match a with
    | ⟨0, _⟩ => show win2_5.index t (0 : Fin 2) * 32 + 1 * k.val = k.val; rw [e50]; omega
    | ⟨1, _⟩ => show win2_5.index t (1 : Fin 2) * 2 + 1 * c'.val = c'.val; rw [e51]; omega
  · intro c'
    unfold iblk2
    rw [View.read_apply]
    refine congrArg (V c main_v7 : S1x2.Idx → EReal) (funext fun a => Fin.ext ?_)
    match a with
    | ⟨0, _⟩ => show win2_6.index t (0 : Fin 2) * 1 + 1 * 0 = 0; rw [e60]
    | ⟨1, _⟩ => show win2_6.index t (1 : Fin 2) * 2 + 1 * c'.val = c'.val; rw [e61]; omega

/-- An index of the output array is in point `t`'s block iff each coordinate is in the block's range on its axis. -/
theorem mem_blk (t : Fin cfg2.N) (i : S10000x2.Idx) :
    i ∈ ((cfg2.win 7).blk t).view.set ↔ ∀ a : Fin 2, win2_7.index t a * S400x2.size a ≤ (i a).val
      ∧ (i a).val < win2_7.index t a * S400x2.size a + S400x2.size a := by
  show i ∈ ((View.whole main_v8).slice (win2_7.rect t)).set ↔ _
  rw [View.set_slice_whole, Rect.mem_set_unit]
  exact Iff.rfl

include hpay in
/-- The 25 row blocks tile the rows, so the output array ends holding `G`: row `r` is written by point `r / 400`. -/
theorem final (c : Dev nD) : (dat2 V c).arrAt 7 cfg2.N = G V c :=
  (dat2 V c).arrAt_eq_of_cover 7 (G V c) (fun t _ => flushed_eq V hpay c t) fun i => by
    have hi0 : (i 0).val < 10000 := idx2_lt0 i
    have hi1 : (i 1).val < 2 := idx2_lt1 i
    have hN : cfg2.N = 25 := N_2
    have ht : (i 0).val / 400 < cfg2.N := by rw [hN]; omega
    refine ⟨⟨(i 0).val / 400, ht⟩, flush2_7 _, ?_⟩
    rw [mem_blk]
    obtain ⟨-, -, -, -, -, -, -, -, -, -, -, -, -, -, e70, e71⟩ := idx_facts ⟨(i 0).val / 400, ht⟩
    intro a
    match a with
    | ⟨0, _⟩ =>
      show win2_7.index ⟨(i 0).val / 400, ht⟩ (0 : Fin 2) * 400 ≤ (i 0).val
        ∧ (i 0).val < win2_7.index ⟨(i 0).val / 400, ht⟩ (0 : Fin 2) * 400 + 400
      rw [e70]; show (i 0).val / 400 * 400 ≤ (i 0).val ∧ (i 0).val < (i 0).val / 400 * 400 + 400; omega
    | ⟨1, _⟩ =>
      show win2_7.index ⟨(i 0).val / 400, ht⟩ (1 : Fin 2) * 2 ≤ (i 1).val
        ∧ (i 1).val < win2_7.index ⟨(i 0).val / 400, ht⟩ (1 : Fin 2) * 2 + 2
      rw [e71]; omega

end Cert.Gcn.Reg2

end
-- ==== Proof.Pay.lean ====
/-
  The kernel's three bodies read at an index. Each body's arithmetic is one pure term of the values it loads; read at
  `(r, c)` that term is the corresponding function of Spec.lean: the first body's is the matrix product `X · W1`, the
  second's `relu (A · S + b1) · W2`, the third's the row-wise log-softmax of the dense head's scores. On extended reals
  every format change is the identity and a product into the zero accumulator is the plain sum over the contracted
  coordinate, so each step is the reading of one operation at an index.
-/
import proofs.«129954_g6133213299120_cont_sun_m_656_2_alg».proof.Proof.Gen.KernelIdeal.Skeleton
import proofs.«129954_g6133213299120_cont_sun_m_656_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
open scoped BigOperators
namespace Cert.Gcn.Pay
open Cert.KernelIdeal Cert.KernelIdeal.Gen Idealize.ShloMosaic Idealize.ShloMosaic.ValueIdx Cert.Gcn

/-! ## A plain matrix product read at an index -/

/-- The dimension numbers `⟨[1], [0], [0], [1], [], []⟩` of an `M × K` by `K × N` product: the left operand's index at
    output `(r, c)` and contraction position `k` is `(r, k)`, the right operand's is `(k, c)`; into the zero
    accumulator the product at `(r, c)` is the sum over the contracted coordinate. -/
theorem matmul_plain_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-! ## The first kernel: `X · W1` -/

theorem pay0 (x0 : Vec Ideal S10000x128 .f32) (x1 : Vec Ideal S128x128 .bf16) (r : Fin 10000) (c : Fin 128) :
    k0_pay1 (F := Ideal) x0 x1 (ix2 r c) = mm x0 x1 r c := by
  unfold k0_pay1 mm
  refine (matmul_plain_apply (M := 10000) (K := 128) (N := 128) none _ _ r c).trans ?_
  refine Finset.sum_congr rfl fun j _ => ?_
  rw [shapeCast_self]
  rfl

/-! ## One graph convolution before its activation -/

/-- `A · S + b` as both later kernels print it — the product of the `[n, p]` block with the `[p, h]` operand into the
    zero accumulator, plus the `[1, h]` bias broadcast over the rows — read at `(r, k)`. -/
theorem conv_apply {n p h : Nat} (A : FVec Ideal ⟨2, ![n, p]⟩ .f32) (S : FVec Ideal ⟨2, ![p, h]⟩ .bf16)
    (b : FVec Ideal ⟨2, ![1, h]⟩ .f32) (hlt : FTy.bits .bf16 < FTy.bits .f32)
    (hS : (⟨2, ![p, h]⟩ : Shape).ShapeCasts ⟨2, ![p, h]⟩) (hb : (⟨2, ![1, h]⟩ : Shape).ShapeCasts ⟨2, ![1, h]⟩)
    (hbr : (⟨2, ![1, h]⟩ : Shape).Broadcasts ⟨2, ![n, h]⟩) (r : Fin n) (k : Fin h) :
    addf (FloatOps.matmul (DotDims.plain n p h) none (truncf .bf16 A hlt) (shapeCast ⟨2, ![p, h]⟩ S hS)
        (constant (F := Ideal) ⟨2, ![n, h]⟩ .f32 0x00000000#32))
      (broadcastTo ⟨2, ![n, h]⟩ (shapeCast ⟨2, ![1, h]⟩ b hb) hbr) (ix2 r k)
      = logit A S (fun k => b (ix2 (0 : Fin 1) k)) r k := by
  unfold logit mm
  rw [addf_apply]
  refine congrArg₂ (· + ·) ?_ ?_
  · refine (matmul_plain_apply none _ _ r k).trans (Finset.sum_congr rfl fun j _ => ?_)
    rw [shapeCast_self]
    rfl
  · rw [broadcastTo_1b_ab_apply, shapeCast_self]

/-! ## The second kernel: `relu (A · S + b1) · W2` -/

theorem pay1 (x0 : Vec Ideal S400x10000 .f32) (x1 : Vec Ideal S10000x128 .bf16) (x2 : Vec Ideal S1x128 .f32)
    (x3 : Vec Ideal S128x128 .bf16) (r : Fin 400) (c : Fin 128) :
    k1_pay1 (F := Ideal) x0 x1 x2 x3 (ix2 r c) = layer1 x0 x1 (fun k => x2 (ix2 (0 : Fin 1) k)) x3 r c := by
  unfold k1_pay1 layer1
  refine (matmul_plain_apply (M := 400) (K := 128) (N := 128) none _ _ r c).trans ?_
  refine Finset.sum_congr rfl fun k _ => ?_
  rw [shapeCast_self x3]
  refine congrArg (· * x3 (ix2 k c)) ?_
  unfold hid
  exact congrArg₂ max (conv_apply (n := 400) (p := 10000) (h := 128) x0 x1 x2 _ _ _ _ r k) Ideal.ofBits_zero_f32

/-! ## The keepdims column forms of the layout operations -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over result index `r` of a reduction of an `[a, b]` array along its second axis, the source index with coordinate
    `k` inserted is `(r, k)`. -/
theorem lift_ix1 {a b : ℕ} (h : Shape.Reduces ⟨2, ![a, b]⟩ [1] ⟨1, ![a]⟩) (r : Fin a) (k : Fin b) :
    h.lift (ix1 r) k = ix2 r k :=
  funext fun d => Fin.ext (by
    match d with
    | ⟨0, _⟩ => rfl
    | ⟨1, _⟩ => rfl)

/-! ## A dense layer -/

/-- `X · W + b` as the head prints it — an f32 product into the zero accumulator plus the `[1, o]` bias broadcast over
    the rows — read at `(r, c)`, with row `r` of `X` known entry by entry. -/
theorem dense_apply {n p o : Nat} (X : FVec Ideal ⟨2, ![n, p]⟩ .f32) (W : FVec Ideal ⟨2, ![p, o]⟩ .f32)
    (b : FVec Ideal ⟨2, ![1, o]⟩ .f32) (xr : Fin p → EReal) (r : Fin n) (hX : ∀ j : Fin p, X (ix2 r j) = xr j)
    (hb : (⟨2, ![1, o]⟩ : Shape).ShapeCasts ⟨2, ![1, o]⟩) (hbr : (⟨2, ![1, o]⟩ : Shape).Broadcasts ⟨2, ![n, o]⟩) (c : Fin o) :
    addf (FloatOps.matmul (DotDims.plain n p o) (some .fp32) X W (constant (F := Ideal) ⟨2, ![n, o]⟩ .f32 0x00000000#32))
      (broadcastTo ⟨2, ![n, o]⟩ (shapeCast ⟨2, ![1, o]⟩ b hb) hbr) (ix2 r c)
      = (∑ j : Fin p, xr j * W (ix2 j c)) + b (ix2 (0 : Fin 1) c) := by
  rw [addf_apply]
  refine congrArg₂ (· + ·) ?_ ?_
  · refine (matmul_plain_apply (some .fp32) X W r c).trans (Finset.sum_congr rfl fun j _ => ?_)
    rw [hX j]
  · rw [broadcastTo_1b_ab_apply, shapeCast_self]

/-! ## The row-wise log-softmax -/

/-- A row's maximum, kept as a column and broadcast back over the row: at `(r, c)` the fold of `max`, from the value of
    the accumulator's pattern, over row `r`. -/
theorem rowmax_apply {a b : Nat} (s : FVec Ideal ⟨2, ![a, b]⟩ .f32) (sc : Fin b → EReal) (r : Fin a)
    (hs : ∀ c : Fin b, s (ix2 r c) = sc c)
    (h : Shape.Reduces ⟨2, ![a, b]⟩ [1] ⟨1, ![a]⟩) (hφ : FKind.Formats .f32)
    (hmax : (0xFF800000#32 : BitVec 32) = FKind.maximumf.neutral .f32 hφ)
    (h1 : (⟨1, ![a]⟩ : Shape).ShapeCasts ⟨2, ![a, 1]⟩) (h2 : (⟨2, ![a, 1]⟩ : Shape).Broadcasts ⟨2, ![a, b]⟩) (c : Fin b) :
    broadcastTo ⟨2, ![a, b]⟩ (shapeCast ⟨2, ![a, 1]⟩
        (multiReduction (F := Ideal) .maximumf [1] ⟨1, ![a]⟩ s 0xFF800000#32 h hφ hmax) h1) h2 (ix2 r c)
      = (Finset.univ : Finset (Fin b)).fold max (Ideal.ofBits .f32 0xFF800000#32) sc := by
  rw [broadcastTo_a1_ab_apply, shapeCast_a_a1_apply]
  refine (Ideal.multiReduction_maximumf_single s 0xFF800000#32 h hφ hmax (ix1 r)).trans ?_
  have e : (s ∘ h.lift (ix1 r)) = sc := funext fun k => by
    show s (h.lift (ix1 r) k) = sc k
    rw [lift_ix1 h r k]
    exact hs k
  rw [e]
  rfl

/-- The shifted log-softmax of row `r`: with the row known entry by entry and the shift `M` constant `m` along it,
    the entry at `(r, c)` is `(sc c - m) - log (∑ c', exp (sc c' - m))`. -/
theorem logsumexp_apply {a b : Nat} (s M : FVec Ideal ⟨2, ![a, b]⟩ .f32) (sc : Fin b → EReal) (m : EReal) (r : Fin a)
    (hs : ∀ c : Fin b, s (ix2 r c) = sc c) (hM : ∀ c : Fin b, M (ix2 r c) = m)
    (h : Shape.Reduces ⟨2, ![a, b]⟩ [1] ⟨1, ![a]⟩) (hφ : FKind.Formats .f32)
    (hadd : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩) (c : Fin b) :
    subf (subf s M) (broadcastTo ⟨2, ![a, b]⟩ (log (shapeCast ⟨2, ![a, 1]⟩
        (multiReduction (F := Ideal) .add [1] ⟨1, ![a]⟩ (exp (subf s M)) 0x00000000#32 h hφ hadd) h1)) h2) (ix2 r c)
      = (sc c - m) - Ideal.log (∑ c' : Fin b, Ideal.exp (sc c' - m)) := by
  rw [subf_apply, subf_apply, hs c, hM c, broadcastTo_a1_ab_apply]
  refine congrArg (fun t => (sc c - m) - Ideal.log t) ?_
  refine (shapeCast_a_a1_apply _ h1 r (0 : Fin 1)).trans ?_
  refine (Ideal.multiReduction_add_single (exp (subf s M)) 0x00000000#32 h hφ hadd (ix1 r)).trans ?_
  refine Finset.sum_congr rfl fun k _ => ?_
  rw [lift_ix1 h r k]
  show Ideal.exp (s (ix2 r k) - M (ix2 r k)) = _
  rw [hs k, hM k]

/-- The row-wise log-softmax as the third kernel prints it — the row's maximum subtracted, then the logarithm of the
    row's sum of exponentials subtracted — read at `(r, c)`, with row `r` of the scores known entry by entry. -/
theorem logsoftmax_apply {a b : Nat} (s : FVec Ideal ⟨2, ![a, b]⟩ .f32) (sc : Fin b → EReal) (r : Fin a)
    (hs : ∀ c : Fin b, s (ix2 r c) = sc c)
    (h : Shape.Reduces ⟨2, ![a, b]⟩ [1] ⟨1, ![a]⟩) (hφ : FKind.Formats .f32)
    (hmax : (0xFF800000#32 : BitVec 32) = FKind.maximumf.neutral .f32 hφ)
    (hadd : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩) (c : Fin b) :
    subf
      (subf s (broadcastTo ⟨2, ![a, b]⟩ (shapeCast ⟨2, ![a, 1]⟩
        (multiReduction (F := Ideal) .maximumf [1] ⟨1, ![a]⟩ s 0xFF800000#32 h hφ hmax) h1) h2))
      (broadcastTo ⟨2, ![a, b]⟩ (log (shapeCast ⟨2, ![a, 1]⟩
        (multiReduction (F := Ideal) .add [1] ⟨1, ![a]⟩
          (exp (subf s (broadcastTo ⟨2, ![a, b]⟩ (shapeCast ⟨2, ![a, 1]⟩
            (multiReduction (F := Ideal) .maximumf [1] ⟨1, ![a]⟩ s 0xFF800000#32 h hφ hmax) h1) h2)))
          0x00000000#32 h hφ hadd) h1)) h2) (ix2 r c)
      = (sc c - (Finset.univ : Finset (Fin b)).fold max (Ideal.ofBits .f32 0xFF800000#32) sc)
        - Ideal.log (∑ c' : Fin b, Ideal.exp (sc c' - (Finset.univ : Finset (Fin b)).fold max (Ideal.ofBits .f32 0xFF800000#32) sc)) :=
  logsumexp_apply s _ sc _ r hs (fun c' => rowmax_apply s sc r hs h hφ hmax h1 h2 c') h hφ hadd h1 h2 c

/-! ## The third kernel: the dense head and the row-wise log-softmax -/

theorem pay2 (x0 : Vec Ideal S400x10000 .f32) (x1 : Vec Ideal S10000x128 .bf16) (x2 : Vec Ideal S1x128 .f32)
    (x3 : Vec Ideal S128x32 .f32) (x4 : Vec Ideal S1x32 .f32) (x5 : Vec Ideal S32x2 .f32) (x6 : Vec Ideal S1x2 .f32)
    (r : Fin 400) (c : Fin 2) :
    k2_pay1 (F := Ideal) x0 x1 x2 x3 x4 x5 x6 (ix2 r c)
      = head x0 x1 (fun k => x2 (ix2 (0 : Fin 1) k)) x3 (fun k => x4 (ix2 (0 : Fin 1) k)) x5 (fun k => x6 (ix2 (0 : Fin 1) k)) r c := by
  unfold k2_pay1 head rowmax negInf
  refine logsoftmax_apply (a := 400) (b := 2) _
    (fun c' => score x0 x1 (fun k => x2 (ix2 (0 : Fin 1) k)) x3 (fun k => x4 (ix2 (0 : Fin 1) k)) x5
      (fun k => x6 (ix2 (0 : Fin 1) k)) r c') r ?_ _ _ _ _ _ _ c
  -- the scores of row `r`: the second dense layer over the features
  intro c'
  unfold score
  refine dense_apply (n := 400) (p := 32) (o := 2) _ x5 x6
    (fun k => feat x0 x1 (fun k => x2 (ix2 (0 : Fin 1) k)) x3 (fun k => x4 (ix2 (0 : Fin 1) k)) r k) r ?_ _ _ c'
  -- the features: the first dense layer over the graph convolution's row, then the relu
  intro k
  unfold feat
  refine congrArg₂ max (dense_apply (n := 400) (p := 128) (o := 32) _ x3 x4
    (fun j => logit x0 x1 (fun k => x2 (ix2 (0 : Fin 1) k)) r j) r ?_ _ _ k) Ideal.ofBits_zero_f32
  intro j
  exact conv_apply (n := 400) (p := 10000) (h := 128) x0 x1 x2 _ _ _ _ r j

end Cert.Gcn.Pay

end
-- ==== Proof.RefStages.lean ====
/-
  The reference program's stages are the functions of the specification.

  Each stage of the reference program, read at a rank-2 index `ix2 r c`, is the corresponding function of the
  specification: the first product `X · W1`, the first layer followed by the second weight, and the head
  (second convolution, dense layers, row-wise log-softmax).  Every proof reads the printed stages one operation at
  a time at the index, identifies the composed index maps with coordinate constructors, and turns the float
  operations into the extended reals' own.
-/
import proofs.«129954_g6133213299120_cont_sun_m_656_2_alg».proof.Proof.RefReadP
import proofs.«129954_g6133213299120_cont_sun_m_656_2_alg».proof.Proof.Spec
noncomputable section
open scoped BigOperators
namespace Cert.Gcn.Ref
open Cert.ReferenceIdeal Cert.ReferenceIdeal.ReadP Idealize.ShloMosaic Idealize.ShloMosaic.ValueIdx Cert.Gcn

variable (X : (⟨S10000x128, .f32⟩ : BufTy).Contents (Elt Ideal)) (A : (⟨S10000x10000, .f32⟩ : BufTy).Contents (Elt Ideal))
  (W1 : (⟨S128x128, .f32⟩ : BufTy).Contents (Elt Ideal)) (b1 : (⟨S128, .f32⟩ : BufTy).Contents (Elt Ideal))
  (W2 : (⟨S128x128, .f32⟩ : BufTy).Contents (Elt Ideal)) (b2 : (⟨S128, .f32⟩ : BufTy).Contents (Elt Ideal))
  (fw1 : (⟨S128x32, .f32⟩ : BufTy).Contents (Elt Ideal)) (fb1 : (⟨S32, .f32⟩ : BufTy).Contents (Elt Ideal))
  (fw2 : (⟨S32x2, .f32⟩ : BufTy).Contents (Elt Ideal)) (fb2 : (⟨S2, .f32⟩ : BufTy).Contents (Elt Ideal))

/-! ## The first product -/

/-- The left operand's index of the first product at `(r, c)`, contraction coordinate `k`, is `(r, k)`. -/
theorem lidx_v0 (r : Fin 10000) (c : Fin 128) (k : Fin 128) : lidx_main_v0 (ix2 r c) k = ix2 r k :=
  funext fun a => Fin.ext (by match a with | ⟨0, _⟩ => rfl | ⟨1, _⟩ => rfl)
/-- The right operand's index is `(k, c)`. -/
theorem ridx_v0 (r : Fin 10000) (c : Fin 128) (k : Fin 128) : ridx_main_v0 (ix2 r c) k = ix2 k c :=
  funext fun a => Fin.ext (by match a with | ⟨0, _⟩ => rfl | ⟨1, _⟩ => rfl)

/-- The first stage at `(r, c)` is the matrix product `X · W1` there. -/
theorem s1_apply (r : Fin 10000) (c : Fin 128) :
    val_main_v0 (F := Ideal) X W1 (ix2 r c) = mm X W1 r c := by
  rw [val_main_v0_apply]
  unfold mm
  exact Finset.sum_congr rfl fun k _ => by rw [lidx_v0, ridx_v0]

/-! ## The first layer followed by the second weight -/

/-- The adjacency product's left index at `(r, k)`, contraction coordinate `j`, is `(r, j)`. -/
theorem lidx_v1 (r : Fin 10000) (k : Fin 128) (j : Fin 10000) : lidx_main_v1 (ix2 r k) j = ix2 r j :=
  funext fun a => Fin.ext (by match a with | ⟨0, _⟩ => rfl | ⟨1, _⟩ => rfl)
/-- Its right index is `(j, k)`. -/
theorem ridx_v1 (r : Fin 10000) (k : Fin 128) (j : Fin 10000) : ridx_main_v1 (ix2 r k) j = ix2 j k :=
  funext fun a => Fin.ext (by match a with | ⟨0, _⟩ => rfl | ⟨1, _⟩ => rfl)

/-- The adjacency product at `(r, k)` is `A · (X · W1)` there. -/
theorem v1_apply (r : Fin 10000) (k : Fin 128) :
    val_main_v1 (F := Ideal) X A W1 (ix2 r k) = mm A (val_main_v0 (F := Ideal) X W1) r k := by
  rw [val_main_v1_apply]
  unfold mm
  exact Finset.sum_congr rfl fun j _ => by rw [lidx_v1, ridx_v1]

/-- The first bias, broadcast along the rows, reads its `k`-th entry at `(r, k)`. -/
theorem v3_apply (r : Fin 10000) (k : Fin 128) : val_main_v3 (F := Ideal) b1 (ix2 r k) = b1 (ix1 k) := by
  rw [val_main_v3_apply, val_main_v2_apply]
  exact congrArg b1 (funext fun a => Fin.ext (by match a with | ⟨0, _⟩ => rfl))

/-- The first activation's broadcast constant is zero everywhere. -/
theorem relu0_apply (i : S10000x128.Idx) : val_main_call0_v0 (F := Ideal) i = 0 := by
  rw [val_main_call0_v0_apply, val_main_call0_cst_apply, Ideal.ofBits_def, Ideal.ofBits_zero_f32]

/-- The first layer's hidden activation at `(r, k)`. -/
theorem v5_apply (r : Fin 10000) (k : Fin 128) :
    val_main_v5 (F := Ideal) X A W1 b1 (ix2 r k)
      = hid A (val_main_v0 (F := Ideal) X W1) (fun k => b1 (ix1 k)) r k := by
  rw [val_main_v5_apply, val_main_v4_apply, v1_apply, v3_apply, relu0_apply, Ideal.addf_def, Ideal.maximumf_def]
  rfl

/-- The second weight's product: left index `(r, k)`, right index `(k, c)`. -/
theorem lidx_v6 (r : Fin 10000) (c : Fin 128) (k : Fin 128) : lidx_main_v6 (ix2 r c) k = ix2 r k :=
  funext fun a => Fin.ext (by match a with | ⟨0, _⟩ => rfl | ⟨1, _⟩ => rfl)
theorem ridx_v6 (r : Fin 10000) (c : Fin 128) (k : Fin 128) : ridx_main_v6 (ix2 r c) k = ix2 k c :=
  funext fun a => Fin.ext (by match a with | ⟨0, _⟩ => rfl | ⟨1, _⟩ => rfl)

/-- The sixth stage at `(r, c)` is the first layer followed by the second weight. -/
theorem s2_apply (r : Fin 10000) (c : Fin 128) :
    val_main_v6 (F := Ideal) X A W1 b1 W2 (ix2 r c)
      = layer1 A (val_main_v0 (F := Ideal) X W1) (fun k => b1 (ix1 k)) W2 r c := by
  rw [val_main_v6_apply]
  unfold layer1
  exact Finset.sum_congr rfl fun k _ => by rw [lidx_v6, ridx_v6, v5_apply]

/-! ## The head: second convolution, dense layers, scores -/

/-- The second adjacency product: left index `(r, j)`, right index `(j, k)`. -/
theorem lidx_v7 (r : Fin 10000) (k : Fin 128) (j : Fin 10000) : lidx_main_v7 (ix2 r k) j = ix2 r j :=
  funext fun a => Fin.ext (by match a with | ⟨0, _⟩ => rfl | ⟨1, _⟩ => rfl)
theorem ridx_v7 (r : Fin 10000) (k : Fin 128) (j : Fin 10000) : ridx_main_v7 (ix2 r k) j = ix2 j k :=
  funext fun a => Fin.ext (by match a with | ⟨0, _⟩ => rfl | ⟨1, _⟩ => rfl)

/-- The second adjacency product at `(r, k)`. -/
theorem v7_apply (r : Fin 10000) (k : Fin 128) :
    val_main_v7 (F := Ideal) X A W1 b1 W2 (ix2 r k) = mm A (val_main_v6 (F := Ideal) X A W1 b1 W2) r k := by
  rw [val_main_v7_apply]
  unfold mm
  exact Finset.sum_congr rfl fun j _ => by rw [lidx_v7, ridx_v7]

/-- The second bias, broadcast along the rows. -/
theorem v9_apply (r : Fin 10000) (k : Fin 128) : val_main_v9 (F := Ideal) b2 (ix2 r k) = b2 (ix1 k) := by
  rw [val_main_v9_apply, val_main_v8_apply]
  exact congrArg b2 (funext fun a => Fin.ext (by match a with | ⟨0, _⟩ => rfl))

/-- The second convolution before any activation at `(r, k)`. -/
theorem v10_apply (r : Fin 10000) (k : Fin 128) :
    val_main_v10 (F := Ideal) X A W1 b1 W2 b2 (ix2 r k)
      = logit A (val_main_v6 (F := Ideal) X A W1 b1 W2) (fun k => b2 (ix1 k)) r k := by
  rw [val_main_v10_apply, v7_apply, v9_apply, Ideal.addf_def]
  rfl

/-- The first dense product: left index `(r, j)`, right index `(j, k)`. -/
theorem lidx_v11 (r : Fin 10000) (k : Fin 32) (j : Fin 128) : lidx_main_v11 (ix2 r k) j = ix2 r j :=
  funext fun a => Fin.ext (by match a with | ⟨0, _⟩ => rfl | ⟨1, _⟩ => rfl)
theorem ridx_v11 (r : Fin 10000) (k : Fin 32) (j : Fin 128) : ridx_main_v11 (ix2 r k) j = ix2 j k :=
  funext fun a => Fin.ext (by match a with | ⟨0, _⟩ => rfl | ⟨1, _⟩ => rfl)

/-- The first dense product at `(r, k)`. -/
theorem v11_apply (r : Fin 10000) (k : Fin 32) :
    val_main_v11 (F := Ideal) X A W1 b1 W2 b2 fw1 (ix2 r k)
      = ∑ j : Fin 128, logit A (val_main_v6 (F := Ideal) X A W1 b1 W2) (fun k => b2 (ix1 k)) r j * fw1 (ix2 j k) := by
  rw [val_main_v11_apply]
  exact Finset.sum_congr rfl fun j _ => by rw [lidx_v11, ridx_v11, v10_apply]

/-- The first dense bias, broadcast along the rows. -/
theorem v13_apply (r : Fin 10000) (k : Fin 32) : val_main_v13 (F := Ideal) fb1 (ix2 r k) = fb1 (ix1 k) := by
  rw [val_main_v13_apply, val_main_v12_apply]
  exact congrArg fb1 (funext fun a => Fin.ext (by match a with | ⟨0, _⟩ => rfl))

/-- The second activation's broadcast constant is zero everywhere. -/
theorem relu1_apply (i : S10000x32.Idx) : val_main_call1_v0 (F := Ideal) i = 0 := by
  rw [val_main_call1_v0_apply, val_main_call1_cst_apply, Ideal.ofBits_def, Ideal.ofBits_zero_f32]

/-- The head's hidden features at `(r, k)`. -/
theorem v15_apply (r : Fin 10000) (k : Fin 32) :
    val_main_v15 (F := Ideal) X A W1 b1 W2 b2 fw1 fb1 (ix2 r k)
      = feat A (val_main_v6 (F := Ideal) X A W1 b1 W2) (fun k => b2 (ix1 k)) fw1 (fun k => fb1 (ix1 k)) r k := by
  rw [val_main_v15_apply, val_main_v14_apply, v11_apply, v13_apply, relu1_apply, Ideal.addf_def, Ideal.maximumf_def]
  rfl

/-- The second dense product: left index `(r, k)`, right index `(k, c)`. -/
theorem lidx_v16 (r : Fin 10000) (c : Fin 2) (k : Fin 32) : lidx_main_v16 (ix2 r c) k = ix2 r k :=
  funext fun a => Fin.ext (by match a with | ⟨0, _⟩ => rfl | ⟨1, _⟩ => rfl)
theorem ridx_v16 (r : Fin 10000) (c : Fin 2) (k : Fin 32) : ridx_main_v16 (ix2 r c) k = ix2 k c :=
  funext fun a => Fin.ext (by match a with | ⟨0, _⟩ => rfl | ⟨1, _⟩ => rfl)

/-- The second dense bias, broadcast along the rows. -/
theorem v18_apply (r : Fin 10000) (c : Fin 2) : val_main_v18 (F := Ideal) fb2 (ix2 r c) = fb2 (ix1 c) := by
  rw [val_main_v18_apply, val_main_v17_apply]
  exact congrArg fb2 (funext fun a => Fin.ext (by match a with | ⟨0, _⟩ => rfl))

/-- The class scores at `(r, c)`. -/
theorem v19_apply (r : Fin 10000) (c : Fin 2) :
    val_main_v19 (F := Ideal) X A W1 b1 W2 b2 fw1 fb1 fw2 fb2 (ix2 r c)
      = score A (val_main_v6 (F := Ideal) X A W1 b1 W2) (fun k => b2 (ix1 k)) fw1 (fun k => fb1 (ix1 k)) fw2
          (fun k => fb2 (ix1 k)) r c := by
  rw [val_main_v19_apply, val_main_v16_apply, v18_apply, Ideal.addf_def]
  unfold score
  exact congrArg (· + fb2 (ix1 c)) (Finset.sum_congr rfl fun k _ => by rw [lidx_v16, ridx_v16, v15_apply])

/-! ## The head: the row-wise log-softmax -/

/-- Over row `r`, the index with column `k` put back is `(r, k)`. -/
theorem lift_row (h : S10000x2.Reduces [1] S10000) (r : Fin 10000) (k : Fin (S10000x2.size 1)) :
    h.lift (ix1 r) k = ix2 r (⟨k.val, k.isLt⟩ : Fin 2) := by
  funext c; apply Fin.ext
  match c with | ⟨0, _⟩ => rfl | ⟨1, _⟩ => rfl

/-- A fold of maxima that starts from minus infinity is at least minus infinity, so the maximum with it is the fold. -/
theorem max_negInf_fold {q : Nat} (g : Fin q → EReal) :
    max negInf ((Finset.univ : Finset (Fin q)).fold max negInf g) = (Finset.univ : Finset (Fin q)).fold max negInf g :=
  max_eq_right ((Finset.le_fold_max _).2 (Or.inl le_rfl))

/-- The row maximum: the reduction over the two columns from minus infinity is the fold of the scores of the row. -/
theorem c2v0_apply (r : Fin 10000) :
    val_main_call2_v0 (F := Ideal) X A W1 b1 W2 b2 fw1 fb1 fw2 fb2 (ix1 r)
      = rowmax A (val_main_v6 (F := Ideal) X A W1 b1 W2) (fun k => b2 (ix1 k)) fw1 (fun k => fb1 (ix1 k)) fw2
          (fun k => fb2 (ix1 k)) r := by
  have h : S10000x2.Reduces [1] S10000 := by decide
  unfold val_main_call2_v0
  rw [Host.reduce_eq_fold_single (FloatOps.maximumf (F := Ideal) (φ := .f32)) _ _ _ h _ (ix1 r)]
  have hf : (val_main_v19 (F := Ideal) X A W1 b1 W2 b2 fw1 fb1 fw2 fb2 ∘ h.lift (ix1 r))
      = fun c : Fin 2 => score A (val_main_v6 (F := Ideal) X A W1 b1 W2) (fun k => b2 (ix1 k)) fw1 (fun k => fb1 (ix1 k)) fw2
          (fun k => fb2 (ix1 k)) r c :=
    funext fun c => by
      show val_main_v19 (F := Ideal) X A W1 b1 W2 b2 fw1 fb1 fw2 fb2 (h.lift (ix1 r) c) = _
      rw [lift_row h r c, v19_apply]
      rfl
  unfold rowmax
  exact congrArg (fun f => Finset.fold max negInf f (Finset.univ : Finset (Fin 2))) hf

/-- The maximum of minus infinity and the row maximum is the row maximum. -/
theorem c2v2_apply (r : Fin 10000) :
    val_main_call2_v2 (F := Ideal) X A W1 b1 W2 b2 fw1 fb1 fw2 fb2 (ix1 r)
      = rowmax A (val_main_v6 (F := Ideal) X A W1 b1 W2) (fun k => b2 (ix1 k)) fw1 (fun k => fb1 (ix1 k)) fw2
          (fun k => fb2 (ix1 k)) r := by
  rw [val_main_call2_v2_apply, val_main_call2_v1_apply, val_main_call2_cst_0_apply, c2v0_apply, Ideal.maximumf_def,
    Ideal.ofBits_def]
  unfold rowmax
  exact max_negInf_fold _

/-- The row maximum broadcast back along the columns. -/
theorem c2v4_apply (r : Fin 10000) (c : Fin 2) :
    val_main_call2_v4 (F := Ideal) X A W1 b1 W2 b2 fw1 fb1 fw2 fb2 (ix2 r c)
      = rowmax A (val_main_v6 (F := Ideal) X A W1 b1 W2) (fun k => b2 (ix1 k)) fw1 (fun k => fb1 (ix1 k)) fw2
          (fun k => fb2 (ix1 k)) r := by
  have e : idx_main_call2_v3 (idx_main_call2_v4 (ix2 r c)) = ix1 r :=
    funext fun a => Fin.ext (by match a with | ⟨0, _⟩ => rfl)
  rw [val_main_call2_v4_apply, val_main_call2_v3_apply, e, c2v2_apply]

/-- The shifted score at `(r, c)`. -/
theorem c2v5_apply (r : Fin 10000) (c : Fin 2) :
    val_main_call2_v5 (F := Ideal) X A W1 b1 W2 b2 fw1 fb1 fw2 fb2 (ix2 r c)
      = score A (val_main_v6 (F := Ideal) X A W1 b1 W2) (fun k => b2 (ix1 k)) fw1 (fun k => fb1 (ix1 k)) fw2
          (fun k => fb2 (ix1 k)) r c
        - rowmax A (val_main_v6 (F := Ideal) X A W1 b1 W2) (fun k => b2 (ix1 k)) fw1 (fun k => fb1 (ix1 k)) fw2
          (fun k => fb2 (ix1 k)) r := by
  rw [val_main_call2_v5_apply, v19_apply, c2v4_apply, Ideal.subf_def]

/-- The row's sum of exponentials of the shifted scores (the sum starts from zero). -/
theorem c2v7_apply (r : Fin 10000) :
    val_main_call2_v7 (F := Ideal) X A W1 b1 W2 b2 fw1 fb1 fw2 fb2 (ix1 r)
      = ∑ c' : Fin 2, Ideal.exp (score A (val_main_v6 (F := Ideal) X A W1 b1 W2) (fun k => b2 (ix1 k)) fw1 (fun k => fb1 (ix1 k)) fw2
          (fun k => fb2 (ix1 k)) r c'
        - rowmax A (val_main_v6 (F := Ideal) X A W1 b1 W2) (fun k => b2 (ix1 k)) fw1 (fun k => fb1 (ix1 k)) fw2
          (fun k => fb2 (ix1 k)) r) := by
  rw [val_main_call2_v7_apply, val_main_call2_cst_1_apply, Ideal.ofBits_def, Ideal.ofBits_zero_f32, zero_add]
  refine Finset.sum_congr rfl fun k _ => ?_
  have e : idx_main_call2_v7 (ix1 r) k = ix2 r k :=
    funext fun a => Fin.ext (by match a with | ⟨0, _⟩ => rfl | ⟨1, _⟩ => rfl)
  rw [e, val_main_call2_v6_apply, c2v5_apply, Ideal.hostUnary_exp_def]

/-- The logarithm of that sum, broadcast back along the columns. -/
theorem c2v10_apply (r : Fin 10000) (c : Fin 2) :
    val_main_call2_v10 (F := Ideal) X A W1 b1 W2 b2 fw1 fb1 fw2 fb2 (ix2 r c)
      = Ideal.log (∑ c' : Fin 2, Ideal.exp (score A (val_main_v6 (F := Ideal) X A W1 b1 W2) (fun k => b2 (ix1 k)) fw1 (fun k => fb1 (ix1 k)) fw2
          (fun k => fb2 (ix1 k)) r c'
        - rowmax A (val_main_v6 (F := Ideal) X A W1 b1 W2) (fun k => b2 (ix1 k)) fw1 (fun k => fb1 (ix1 k)) fw2
          (fun k => fb2 (ix1 k)) r)) := by
  have e : idx_main_call2_v8 (idx_main_call2_v10 (ix2 r c)) = ix1 r :=
    funext fun a => Fin.ext (by match a with | ⟨0, _⟩ => rfl)
  rw [val_main_call2_v10_apply, val_main_call2_v9_apply, val_main_call2_v8_apply, e, c2v7_apply, Ideal.hostUnary_log_def]

/-- The reference's result at `(r, c)` is the head of the specification. -/
theorem out_apply (r : Fin 10000) (c : Fin 2) :
    val_main_v20 (F := Ideal) X A W1 b1 W2 b2 fw1 fb1 fw2 fb2 (ix2 r c)
      = head A (val_main_v6 (F := Ideal) X A W1 b1 W2) (fun k => b2 (ix1 k)) fw1 (fun k => fb1 (ix1 k)) fw2 (fun k => fb2 (ix1 k)) r c := by
  rw [val_main_v20_apply, c2v5_apply, c2v10_apply, Ideal.subf_def]
  rfl

end Cert.Gcn.Ref
end
-- ==== Proof.KValue.lean ====
/-
  The idealized kernel's result, read: after the run the result buffer holds the reference's last stage of the
  argument arrays.

  Launch by launch. The first launch leaves `X · W1`, which is the reference's first product; the second, reading that
  array, leaves `relu (A · (X · W1) + b1) · W2`, the reference's third product; the third, reading that one, leaves the
  row-wise log-softmax of the head's scores, the reference's result. Each step joins three facts: what the launch's
  output array holds as a function of the arrays it finds (row blocks of one row-local function, which tile the rows),
  what those arrays are (the launched arguments, their reshaped or converted copies, the previous launch's array), and
  the reference's stage at an index (the same sums).
-/
import proofs.«129954_g6133213299120_cont_sun_m_656_2_alg».proof.Proof.KRun
import proofs.«129954_g6133213299120_cont_sun_m_656_2_alg».proof.Proof.Bound
import proofs.«129954_g6133213299120_cont_sun_m_656_2_alg».proof.Proof.Reg0
import proofs.«129954_g6133213299120_cont_sun_m_656_2_alg».proof.Proof.Reg1
import proofs.«129954_g6133213299120_cont_sun_m_656_2_alg».proof.Proof.Reg2
import proofs.«129954_g6133213299120_cont_sun_m_656_2_alg».proof.Proof.Pay
import proofs.«129954_g6133213299120_cont_sun_m_656_2_alg».proof.Proof.RefStages

noncomputable section

open scoped BigOperators

namespace Cert.Gcn.KValue

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gcn

variable (m : (ℓ : Loc nD τ sig) → Buf (Elt Ideal) ℓ) (ρ : Dev nD → PrngReg)

/-- After the first launch its output array holds the reference's first product `X · W1`. -/
theorem s1 (c : Dev nD) :
    (dat0 (V1 m ρ) c).arrAt 2 cfg0.N = (Cert.ReferenceIdeal.ReadP.val_main_v0 (F := Ideal) (m ((c : Thread nD τ).loc main_arg0)) (m ((c : Thread nD τ).loc main_arg2)) : S10000x128.Idx → EReal) := by
  rw [Reg0.final (V1 m ρ) Pay.pay0 c]
  funext i
  obtain ⟨r, q, rfl⟩ : ∃ (r : Fin 10000) (q : Fin 128), i = ix2 r q := ⟨i 0, i 1, eq_ix2 i⟩
  refine Eq.trans ?_ (Ref.s1_apply (m ((c : Thread nD τ).loc main_arg0)) (m ((c : Thread nD τ).loc main_arg2)) r q).symm
  unfold Reg0.G
  refine Reg0.mm_congr2 _ _ _ _ _ _ _ _ ?_ ?_
  · intro j; exact congrFun (Bound.W1_arg0 m ρ c) (ix2 r j)
  · intro j; exact Bound.W1_v0 m ρ c (ix2 j q)

/-- After the second launch its output array holds the reference's `relu (A · (X · W1) + b1) · W2`. -/
theorem s2 (c : Dev nD) :
    (dat1 (V3 m ρ) c).arrAt 4 cfg1.N = (Cert.ReferenceIdeal.ReadP.val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S10000x128.Idx → EReal) := by
  rw [Reg1.final (V3 m ρ) Pay.pay1 c]
  funext i
  obtain ⟨r, q, rfl⟩ : ∃ (r : Fin 10000) (q : Fin 128), i = ix2 r q := ⟨i 0, i 1, eq_ix2 i⟩
  refine Eq.trans ?_ (Ref.s2_apply (m ((c : Thread nD τ).loc main_arg0)) (m ((c : Thread nD τ).loc main_arg1)) (m ((c : Thread nD τ).loc main_arg2)) (m ((c : Thread nD τ).loc main_arg3)) (m ((c : Thread nD τ).loc main_arg4)) r q).symm
  unfold Reg1.G
  refine layer1_congr _ _ _ _ _ _ _ _ _ _ _ _ ?_ ?_ ?_ ?_
  · intro j; exact congrFun (Bound.W3_arg1 m ρ c) (ix2 r j)
  · intro j k; exact congrFun ((Bound.W3_v1 m ρ c).trans (s1 m ρ c)) (ix2 j k)
  · intro k; exact Bound.W3_v2 m ρ c k
  · intro k; exact Bound.W3_v3 m ρ c (ix2 k q)

/-- After the third launch the result array holds the reference's result. -/
theorem out (c : Dev nD) :
    (dat2 (V5 m ρ) c).arrAt 7 cfg2.N = (Cert.ReferenceIdeal.ReadP.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : S10000x2.Idx → EReal) := by
  rw [Reg2.final (V5 m ρ) Pay.pay2 c]
  funext i
  obtain ⟨r, q, rfl⟩ : ∃ (r : Fin 10000) (q : Fin 2), i = ix2 r q := ⟨i 0, i 1, eq_ix2 i⟩
  refine Eq.trans ?_ (Ref.out_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r q).symm
  unfold Reg2.G
  refine head_congr _ _ _ _ _ _ _ _ _ _ _ _ _ _ _ _ _ _ rfl ?_ ?_ ?_ ?_ ?_ ?_ ?_
  · intro j; exact congrFun (Bound.W5_arg1 m ρ c) (ix2 r j)
  · intro j k; exact congrFun ((Bound.W5_v4 m ρ c).trans (s2 m ρ c)) (ix2 j k)
  · intro k; exact Bound.W5_v5 m ρ c k
  · intro j k; exact congrFun (Bound.W5_arg6 m ρ c) (ix2 j k)
  · intro k; exact Bound.W5_v6 m ρ c k
  · intro k c'; exact congrFun (Bound.W5_arg8 m ρ c) (ix2 k c')
  · intro c'; exact Bound.W5_v7 m ρ c c'

/-- The run, read: every weakly fair execution of the idealized kernel's @main terminates, nothing faulting, with the
    result buffer at the reference's last stage of the argument arrays and the arguments as launched. -/
theorem run : θ_run defs (onTc (τ := τ) (main (F := Ideal))) ⟨m, fun _ => 0, ρ⟩ (fun r => ∀ c : Dev nD,
      r.2.mem ((c.tc : Thread nD τ).loc main_v8) = Cert.ReferenceIdeal.ReadP.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans ((W6_arr m ρ c 7).trans (out m ρ c)), (h c).2⟩)
    (Cert.KernelIdeal.RunV.run_values m ρ)

end Cert.Gcn.KValue

end
-- ==== Proof.lean ====
/-
  The certificate: a dense two-layer graph convolution with a small dense head and a row-wise log-softmax, computed
  by three kernel launches (the feature transform; layer one fused with layer two's weight, over 25 row blocks of the
  adjacency matrix; layer two fused with the head and the log-softmax, over the same row blocks), against the plain
  array program `log_softmax (relu ((A · (relu (A · (X · W1) + b1) · W2) + b2) · fw1 + fb1) · fw2 + fb2)`.

  On extended reals the two programs are the same sums taken in the same order: a change of float format is the
  identity, a kernel matrix product into a zero accumulator is the host's product, a lane reduction is the host's
  reduction, and every entry of row `r` of every stage reads row `r` of the adjacency matrix only, so the row blocks
  of the launches are restrictions of whole-array functions. No algebraic law beyond that is used, and the
  precondition (finite inputs) is never opened.

  The three frames: the kernel's two are the generated frame proofs; the reference's is its run with the result
  dropped. The ideal pass rewrote nothing, so `preserves` is trivial. `algebraic`: the kernel's run ends with the
  result buffer at the reference's last stage of the arguments (Proof/KValue.lean), the reference's run ends there by
  its own read-back, and the two memories agree on the arguments.
-/
import proofs.«129954_g6133213299120_cont_sun_m_656_2_alg».proof.Defs
import proofs.«129954_g6133213299120_cont_sun_m_656_2_alg».proof.Proof.Gen.Kernel
import proofs.«129954_g6133213299120_cont_sun_m_656_2_alg».proof.Proof.Gen.Kernel.Frame
import proofs.«129954_g6133213299120_cont_sun_m_656_2_alg».proof.Proof.Gen.KernelIdeal
import proofs.«129954_g6133213299120_cont_sun_m_656_2_alg».proof.Proof.Gen.KernelIdeal.Frame
import proofs.«129954_g6133213299120_cont_sun_m_656_2_alg».proof.Proof.Gen.ReferenceIdeal
import proofs.«129954_g6133213299120_cont_sun_m_656_2_alg».proof.Proof.Gen.Pre_finite_inputs
import proofs.«129954_g6133213299120_cont_sun_m_656_2_alg».proof.Proof.RefRunP
import proofs.«129954_g6133213299120_cont_sun_m_656_2_alg».proof.Proof.RefReadP
import proofs.«129954_g6133213299120_cont_sun_m_656_2_alg».proof.Proof.KValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's last stage of the kernel's argument arrays: the kernel's by the
    launch-by-launch reading, the reference's by its read-back and the agreement of the two memories on the arguments. -/
theorem algebraic : Cert.algebraic_KernelIdeal_ReferenceIdeal := by
  intro m ρ m' ρ' _ hagree
  refine ⟨fun c => Cert.ReferenceIdeal.ReadP.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Gcn.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v20_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
